-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x1 : Shape := ⟨4, ![8, 512, 512, 1]⟩
abbrev S8x512x512x1x3 : Shape := ⟨5, ![8, 512, 512, 1, 3]⟩
abbrev S8x100000x3x3 : Shape := ⟨4, ![8, 100000, 3, 3]⟩
abbrev S_ : Shape := ⟨0, ![]⟩

class Facts : Prop where
  bcast_S_S8x512x512x1x3 : S_.BroadcastsInDim S8x512x512x1x3 (![] : Fin 0 → Fin S8x512x512x1x3.rank)
  reducesTo_S8x512x512x1x3_S_d0_1_2_3_4 : S8x512x512x1x3.ReducesTo [0, 1, 2, 3, 4] S_
  h_S_ : 0 < S_.numel
  bcast_S_S8x100000x3x3 : S_.BroadcastsInDim S8x100000x3x3 (![] : Fin 0 → Fin S8x100000x3x3.rank)
  reducesTo_S8x100000x3x3_S_d0_1_2_3 : S8x100000x3x3.ReducesTo [0, 1, 2, 3] S_
  bcast_S_S8x512x512x1 : S_.BroadcastsInDim S8x512x512x1 (![] : Fin 0 → Fin S8x512x512x1.rank)
  reducesTo_S8x512x512x1_S_d0_1_2_3 : S8x512x512x1.ReducesTo [0, 1, 2, 3] S_

variable [Facts]

def fn {F : FTy → Type} [FloatOps F] (main_arg0 : IVec S8x512x512x1 32) (main_arg1 : FVec F S8x512x512x1x3 .f32) (main_arg2 : FVec F S8x100000x3x3 .f32) : IVec S_ 1 :=
  let main_v0 : FVec F S8x512x512x1x3 .f32 := Host.absf main_arg1
  let main_cst : FVec F S_ .f32 := constant S_ .f32 0x7F800000#32
  let main_v1 : FVec F S8x512x512x1x3 .f32 := broadcastInDim S8x512x512x1x3 ![] bcast_S_S8x512x512x1x3 main_cst
  let main_v2 : IVec S8x512x512x1x3 1 := cmpf .olt main_v0 main_v1
  let main_c : IVec S_ 1 := constantI S_ 1 1#1
  let main_v3 : IVec S_ 1 := (fun x v => Host.reduce IntOp.andi x v reducesTo_S8x512x512x1x3_S_d0_1_2_3_4 h_S_) main_v2 main_c
  let main_v4 : FVec F S8x100000x3x3 .f32 := Host.absf main_arg2
  let main_cst_0 : FVec F S_ .f32 := constant S_ .f32 0x7F800000#32
  let main_v5 : FVec F S8x100000x3x3 .f32 := broadcastInDim S8x100000x3x3 ![] bcast_S_S8x100000x3x3 main_cst_0
  let main_v6 : IVec S8x100000x3x3 1 := cmpf .olt main_v4 main_v5
  let main_c_1 : IVec S_ 1 := constantI S_ 1 1#1
  let main_v7 : IVec S_ 1 := (fun x v => Host.reduce IntOp.andi x v reducesTo_S8x100000x3x3_S_d0_1_2_3 h_S_) main_v6 main_c_1
  let main_v8 : IVec S_ 1 := andi main_v3 main_v7
  let main_c_2 : IVec S_ 32 := constantI S_ 32 4294967295#32
  let main_v9 : IVec S8x512x512x1 32 := broadcastInDim S8x512x512x1 ![] bcast_S_S8x512x512x1 main_c_2
  let main_v10 : IVec S8x512x512x1 1 := cmpi .sge main_arg0 main_v9
  let main_c_3 : IVec S_ 1 := constantI S_ 1 1#1
  let main_v11 : IVec S_ 1 := (fun x v => Host.reduce IntOp.andi x v reducesTo_S8x512x512x1_S_d0_1_2_3 h_S_) main_v10 main_c_3
  let main_v12 : IVec S_ 1 := andi main_v8 main_v11
  main_v12
-- ==== Kernel.lean ====
abbrev S8x512x512x1 : Shape := ⟨4, ![8, 512, 512, 1]⟩
abbrev S8x512x512x1x3 : Shape := ⟨5, ![8, 512, 512, 1, 3]⟩
abbrev S8x100000x3x3 : Shape := ⟨4, ![8, 100000, 3, 3]⟩
abbrev S8x512x512 : Shape := ⟨3, ![8, 512, 512]⟩
abbrev S8x512x512x3 : Shape := ⟨4, ![8, 512, 512, 3]⟩
abbrev S_ : Shape := ⟨0, ![]⟩
abbrev S800000x3x3 : Shape := ⟨3, ![800000, 3, 3]⟩
abbrev S8x512x512x3x3 : Shape := ⟨5, ![8, 512, 512, 3, 3]⟩
abbrev S8x512x512x3x1 : Shape := ⟨5, ![8, 512, 512, 3, 1]⟩
abbrev S8x3x512x512 : Shape := ⟨4, ![8, 3, 512, 512]⟩
abbrev S8x4x512x512 : Shape := ⟨4, ![8, 4, 512, 512]⟩
abbrev S1x3x512x512 : Shape := ⟨4, ![1, 3, 512, 512]⟩
abbrev S1x512x512 : Shape := ⟨3, ![1, 512, 512]⟩
abbrev S1x4x512x512 : Shape := ⟨4, ![1, 4, 512, 512]⟩
abbrev S1x1x512x512 : Shape := ⟨4, ![1, 1, 512, 512]⟩

abbrev nBuf : Space → Nat
  | .hbm => 36
  | .vmem => 6
  | .smem => 0
  | _ => 0

abbrev bufTy : (tb : Table) → Fin (tcTables nBuf tb) → BufTy
  | .hbm, ⟨0, _⟩ => ⟨S8x512x512x1, .i32⟩
  | .hbm, ⟨1, _⟩ => ⟨S8x512x512x1x3, .f32⟩
  | .hbm, ⟨2, _⟩ => ⟨S8x100000x3x3, .f32⟩
  | .hbm, ⟨3, _⟩ => ⟨S8x512x512, .i32⟩
  | .hbm, ⟨4, _⟩ => ⟨S8x512x512x3, .f32⟩
  | .hbm, ⟨5, _⟩ => ⟨S_, .i32⟩
  | .hbm, ⟨6, _⟩ => ⟨S8x512x512, .i32⟩
  | .hbm, ⟨7, _⟩ => ⟨S8x512x512, .i1⟩
  | .hbm, ⟨8, _⟩ => ⟨S_, .i32⟩
  | .hbm, ⟨9, _⟩ => ⟨S_, .i32⟩
  | .hbm, ⟨10, _⟩ => ⟨S8x512x512, .i32⟩
  | .hbm, ⟨11, _⟩ => ⟨S8x512x512, .i32⟩
  | .hbm, ⟨12, _⟩ => ⟨S8x512x512x1, .i1⟩
  | .hbm, ⟨13, _⟩ => ⟨S_, .f32⟩
  | .hbm, ⟨14, _⟩ => ⟨S8x512x512x3, .i1⟩
  | .hbm, ⟨15, _⟩ => ⟨S8x512x512x3, .f32⟩
  | .hbm, ⟨16, _⟩ => ⟨S8x512x512x3, .f32⟩
  | .hbm, ⟨17, _⟩ => ⟨S800000x3x3, .f32⟩
  | .hbm, ⟨18, _⟩ => ⟨S_, .i32⟩
  | .hbm, ⟨19, _⟩ => ⟨S8x512x512, .i32⟩
  | .hbm, ⟨20, _⟩ => ⟨S8x512x512, .i1⟩
  | .hbm, ⟨21, _⟩ => ⟨S_, .i32⟩
  | .hbm, ⟨22, _⟩ => ⟨S8x512x512, .i32⟩
  | .hbm, ⟨23, _⟩ => ⟨S8x512x512, .i32⟩
  | .hbm, ⟨24, _⟩ => ⟨S8x512x512, .i32⟩
  | .hbm, ⟨25, _⟩ => ⟨S8x512x512x1, .i32⟩
  | .hbm, ⟨26, _⟩ => ⟨S8x512x512x3x3, .f32⟩
  | .hbm, ⟨27, _⟩ => ⟨S8x512x512x3x1, .f32⟩
  | .hbm, ⟨28, _⟩ => ⟨S8x512x512x3x3, .f32⟩
  | .hbm, ⟨29, _⟩ => ⟨S8x512x512x3x3, .f32⟩
  | .hbm, ⟨30, _⟩ => ⟨S_, .f32⟩
  | .hbm, ⟨31, _⟩ => ⟨S8x512x512x3, .f32⟩
  | .hbm, ⟨32, _⟩ => ⟨S8x3x512x512, .f32⟩
  | .hbm, ⟨33, _⟩ => ⟨S8x512x512, .i1⟩
  | .hbm, ⟨34, _⟩ => ⟨S8x512x512, .f32⟩
  | .hbm, ⟨35, _⟩ => ⟨S8x4x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x512x512, .f32⟩
  | .local _ .vmem, ⟨3, _⟩ => ⟨S1x512x512, .f32⟩
  | .local _ .vmem, ⟨4, _⟩ => ⟨S1x4x512x512, .f32⟩
  | .local _ .vmem, ⟨5, _⟩ => ⟨S1x4x512x512, .f32⟩
  | _, _ => ⟨S8x512x512x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x512x512x1_S8x512x512 : S8x512x512x1.ShapeCasts S8x512x512
  shapeCasts_S8x512x512x1x3_S8x512x512x3 : S8x512x512x1x3.ShapeCasts S8x512x512x3
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  bcast_S8x512x512x1_S8x512x512x3_0_1_2_3 : S8x512x512x1.BroadcastsInDim S8x512x512x3 (![0, 1, 2, 3] : Fin 4 → Fin S8x512x512x3.rank)
  bcast_S_S8x512x512x3 : S_.BroadcastsInDim S8x512x512x3 (![] : Fin 0 → Fin S8x512x512x3.rank)
  shapeCasts_S8x100000x3x3_S800000x3x3 : S8x100000x3x3.ShapeCasts S800000x3x3
  bcast_S8x512x512x3_S8x512x512x3x1_0_1_2_3 : S8x512x512x3.BroadcastsInDim S8x512x512x3x1 (![0, 1, 2, 3] : Fin 4 → Fin S8x512x512x3x1.rank)
  bcast_S8x512x512x3x1_S8x512x512x3x3_0_1_2_3_4 : S8x512x512x3x1.BroadcastsInDim S8x512x512x3x3 (![0, 1, 2, 3, 4] : Fin 5 → Fin S8x512x512x3x3.rank)
  reducesTo_S8x512x512x3x3_S8x512x512x3_d3 : S8x512x512x3x3.ReducesTo [3] S8x512x512x3
  h_S_ : 0 < S_.numel
  transposes_S8x512x512x3_S8x3x512x512_0_3_1_2 : S8x512x512x3.Transposes [0, 3, 1, 2] S8x3x512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S1x3x512x512 : S1x3x512x512.ShapeCasts S1x3x512x512
  inb_S1x4x512x512_S1x3x512x512_0_0_0_0 : ∀ a, (![0, 0, 0, 0] : Fin 4 → Nat) a + S1x3x512x512.size a ≤ S1x4x512x512.size a
  inb_S1x512x512_S1x512x512_0_0_0 : ∀ a, (![0, 0, 0] : Fin 3 → Nat) a + S1x512x512.size a ≤ S1x512x512.size a
  h_S1x512x512 : 0 < S1x512x512.numel
  shapeCasts_S1x512x512_S1x512x512 : S1x512x512.ShapeCasts S1x512x512
  inb_S1x4x512x512_S1x1x512x512_0_3_0_0 : ∀ a, (![0, 3, 0, 0] : Fin 4 → Nat) a + S1x1x512x512.size a ≤ S1x4x512x512.size a
  h_S1x1x512x512 : 0 < S1x1x512x512.numel
  shapeCasts_S1x1x512x512_S1x512x512 : S1x1x512x512.ShapeCasts S1x512x512
  shapeCasts_S1x512x512_S1x1x512x512 : S1x512x512.ShapeCasts S1x1x512x512
  gather_S800000x3x3_S8x512x512x1_S8x512x512x3x3_34_0_n_n_0_3_133_wf : GatherDims.WF S800000x3x3 S8x512x512x1 S8x512x512x3x3 [3, 4] [0] [] [0] [] 3 ![1, 3, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S8x3x512x512.size a
  hwx0_0 : ∀ i : grid0.Coords, EltTy.bits .f32 = 32 ∨ (Rect.block (s := S8x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x512x512.size a ≤ S8x4x512x512.size a
  hwx0_2 : ∀ i : grid0.Coords, EltTy.bits .f32 = 32 ∨ (Rect.block (s := S8x4x512x512) S1x4x512x512.size (cc0_transform_2 i) (hinb0_2 i)).WholeWords (EltTy.packing .f32)

variable [Facts₀]

def gather_S800000x3x3_S8x512x512x1_S8x512x512x3x3_34_0_n_n_0_3_133 : GatherDims S800000x3x3 S8x512x512x1 S8x512x512x3x3 where
  offsetDims := [3, 4]
  collapsedSliceDims := [0]
  operandBatchingDims := []
  startIndicesBatchingDims := []
  startIndexMap := [0]
  indexVectorDim := 3
  sliceSizes := ![1, 3, 3]
  wf := gather_S800000x3x3_S8x512x512x1_S8x512x512x3x3_34_0_n_n_0_3_133_wf

abbrev win0_0 : Pipeline.Window sig grid0 :=
  Pipeline.Window.ofSpec (Memref.whole main_v19) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x512x1 : Shape := ⟨4, ![8, 512, 512, 1]⟩
abbrev S8x512x512x1x3 : Shape := ⟨5, ![8, 512, 512, 1, 3]⟩
abbrev S8x100000x3x3 : Shape := ⟨4, ![8, 100000, 3, 3]⟩
abbrev S800000x3x3 : Shape := ⟨3, ![800000, 3, 3]⟩
abbrev S_ : Shape := ⟨0, ![]⟩
abbrev S8x512x512x1x1 : Shape := ⟨5, ![8, 512, 512, 1, 1]⟩
abbrev S8x512x512x1x3x3 : Shape := ⟨6, ![8, 512, 512, 1, 3, 3]⟩
abbrev S8x512x512x1x3x1 : Shape := ⟨6, ![8, 512, 512, 1, 3, 1]⟩
abbrev S8x512x512x3 : Shape := ⟨4, ![8, 512, 512, 3]⟩
abbrev S8x3x512x512 : Shape := ⟨4, ![8, 3, 512, 512]⟩
abbrev S8x512x512 : Shape := ⟨3, ![8, 512, 512]⟩
abbrev S8x1x512x512 : Shape := ⟨4, ![8, 1, 512, 512]⟩
abbrev S8x4x512x512 : Shape := ⟨4, ![8, 4, 512, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x512x512x1, .i32⟩
  | .hbm, ⟨1, _⟩ => ⟨S8x512x512x1x3, .f32⟩
  | .hbm, ⟨2, _⟩ => ⟨S8x100000x3x3, .f32⟩
  | .hbm, ⟨3, _⟩ => ⟨S800000x3x3, .f32⟩
  | .hbm, ⟨4, _⟩ => ⟨S_, .i32⟩
  | .hbm, ⟨5, _⟩ => ⟨S8x512x512x1, .i32⟩
  | .hbm, ⟨6, _⟩ => ⟨S8x512x512x1, .i1⟩
  | .hbm, ⟨7, _⟩ => ⟨S_, .i32⟩
  | .hbm, ⟨8, _⟩ => ⟨S_, .i32⟩
  | .hbm, ⟨9, _⟩ => ⟨S8x512x512x1, .i32⟩
  | .hbm, ⟨10, _⟩ => ⟨S8x512x512x1, .i32⟩
  | .hbm, ⟨11, _⟩ => ⟨S_, .i32⟩
  | .hbm, ⟨12, _⟩ => ⟨S8x512x512x1, .i32⟩
  | .hbm, ⟨13, _⟩ => ⟨S8x512x512x1, .i1⟩
  | .hbm, ⟨14, _⟩ => ⟨S_, .i32⟩
  | .hbm, ⟨15, _⟩ => ⟨S8x512x512x1, .i32⟩
  | .hbm, ⟨16, _⟩ => ⟨S8x512x512x1, .i32⟩
  | .hbm, ⟨17, _⟩ => ⟨S8x512x512x1, .i32⟩
  | .hbm, ⟨18, _⟩ => ⟨S8x512x512x1x1, .i32⟩
  | .hbm, ⟨19, _⟩ => ⟨S8x512x512x1x3x3, .f32⟩
  | .hbm, ⟨20, _⟩ => ⟨S8x512x512x1x3x1, .f32⟩
  | .hbm, ⟨21, _⟩ => ⟨S8x512x512x1x3x3, .f32⟩
  | .hbm, ⟨22, _⟩ => ⟨S8x512x512x1x3x3, .f32⟩
  | .hbm, ⟨23, _⟩ => ⟨S_, .f32⟩
  | .hbm, ⟨24, _⟩ => ⟨S8x512x512x1x3, .f32⟩
  | .hbm, ⟨25, _⟩ => ⟨S8x512x512x1x1, .i1⟩
  | .hbm, ⟨26, _⟩ => ⟨S_, .f32⟩
  | .hbm, ⟨27, _⟩ => ⟨S8x512x512x1x3, .i1⟩
  | .hbm, ⟨28, _⟩ => ⟨S8x512x512x1x3, .f32⟩
  | .hbm, ⟨29, _⟩ => ⟨S8x512x512x1x3, .f32⟩
  | .hbm, ⟨30, _⟩ => ⟨S8x512x512x3, .f32⟩
  | .hbm, ⟨31, _⟩ => ⟨S8x3x512x512, .f32⟩
  | .hbm, ⟨32, _⟩ => ⟨S8x512x512x1, .i1⟩
  | .hbm, ⟨33, _⟩ => ⟨S8x512x512, .i1⟩
  | .hbm, ⟨34, _⟩ => ⟨S8x512x512, .f32⟩
  | .hbm, ⟨35, _⟩ => ⟨S8x1x512x512, .f32⟩
  | .hbm, ⟨36, _⟩ => ⟨S8x4x512x512, .f32⟩
  | _, _ => ⟨S8x512x512x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  shapeCasts_S8x100000x3x3_S800000x3x3 : S8x100000x3x3.ShapeCasts S800000x3x3
  bcast_S_S8x512x512x1 : S_.BroadcastsInDim S8x512x512x1 (![] : Fin 0 → Fin S8x512x512x1.rank)
  bcast_S8x512x512x1_S8x512x512x1x1_0_1_2_3 : S8x512x512x1.BroadcastsInDim S8x512x512x1x1 (![0, 1, 2, 3] : Fin 4 → Fin S8x512x512x1x1.rank)
  bcast_S8x512x512x1x3_S8x512x512x1x3x1_0_1_2_3_4 : S8x512x512x1x3.BroadcastsInDim S8x512x512x1x3x1 (![0, 1, 2, 3, 4] : Fin 5 → Fin S8x512x512x1x3x1.rank)
  bcast_S8x512x512x1x3x1_S8x512x512x1x3x3_0_1_2_3_4_5 : S8x512x512x1x3x1.BroadcastsInDim S8x512x512x1x3x3 (![0, 1, 2, 3, 4, 5] : Fin 6 → Fin S8x512x512x1x3x3.rank)
  reducesTo_S8x512x512x1x3x3_S8x512x512x1x3_d4 : S8x512x512x1x3x3.ReducesTo [4] S8x512x512x1x3
  h_S_ : 0 < S_.numel
  bcast_S8x512x512x1x1_S8x512x512x1x3_0_1_2_3_4 : S8x512x512x1x1.BroadcastsInDim S8x512x512x1x3 (![0, 1, 2, 3, 4] : Fin 5 → Fin S8x512x512x1x3.rank)
  bcast_S_S8x512x512x1x3 : S_.BroadcastsInDim S8x512x512x1x3 (![] : Fin 0 → Fin S8x512x512x1x3.rank)
  shapeCasts_S8x512x512x1x3_S8x512x512x3 : S8x512x512x1x3.ShapeCasts S8x512x512x3
  transposes_S8x512x512x3_S8x3x512x512_0_3_1_2 : S8x512x512x3.Transposes [0, 3, 1, 2] S8x3x512x512
  shapeCasts_S8x512x512x1_S8x512x512 : S8x512x512x1.ShapeCasts S8x512x512
  bcast_S8x512x512_S8x1x512x512_0_2_3 : S8x512x512.BroadcastsInDim S8x1x512x512 (![0, 2, 3] : Fin 3 → Fin S8x1x512x512.rank)
  concatenates_S8x3x512x512_S8x1x512x512_S8x4x512x512_d1 : Shape.Concatenates [S8x3x512x512, S8x1x512x512] S8x4x512x512 1
  gather_S800000x3x3_S8x512x512x1x1_S8x512x512x1x3x3_45_0_n_n_0_4_133_wf : GatherDims.WF S800000x3x3 S8x512x512x1x1 S8x512x512x1x3x3 [4, 5] [0] [] [0] [] 4 ![1, 3, 3]

variable [Facts₀]

def gather_S800000x3x3_S8x512x512x1x1_S8x512x512x1x3x3_45_0_n_n_0_4_133 : GatherDims S800000x3x3 S8x512x512x1x1 S8x512x512x1x3x3 where
  offsetDims := [4, 5]
  collapsedSliceDims := [0]
  operandBatchingDims := []
  startIndicesBatchingDims := []
  startIndexMap := [0]
  indexVectorDim := 4
  sliceSizes := ![1, 3, 3]
  wf := gather_S800000x3x3_S8x512x512x1x1_S8x512x512x1x3x3_45_0_n_n_0_4_133_wf

class Facts : Prop extends Facts₀ where

variable [Facts]
-- ==== Proof.Raster.lean ====
/-
  THE SPECIFICATION. A rasterised mesh: each pixel `(n, h, w)` of `8` images of `512 × 512` carries a face word `p`
  and three barycentric weights `b 0, b 1, b 2`; the packed face table has `800000` rows (faces), each a `3 × 3` block
  (vertex × channel). Pixel `(n, h, w)` is EMPTY when `p = -1`. The result image has four channels:

    channel `ch < 3` :  `0`                                        on an empty pixel,
                        `0 + Σ_v  b v · table[row p, v, ch]`        otherwise,
    channel `3`      :  `0` on an empty pixel, `1` otherwise (the visibility mask),

  where `row p` is the table row the word selects: a negative word is first wrapped by `+800000` (numpy's
  negative index), and the result is read signed and clamped into `[0, 799999]` (the gather's clamp).
  Everything is stated index by index over the literal shapes, on the extended reals.
-/
import Idealize.ShloMosaic.PureOps.Ideal
import Idealize.ShloMosaic.Lib.ValueIdx

noncomputable section

open scoped BigOperators

namespace Cert.Raster

open Idealize.ShloMosaic Idealize.ShloMosaic.ValueIdx

/-- The face words: one per pixel, `[8, 512, 512, 1]`. -/
abbrev Pix : Shape := ⟨4, ![8, 512, 512, 1]⟩
/-- The barycentric weights: three per pixel, `[8, 512, 512, 1, 3]`. -/
abbrev Bary : Shape := ⟨5, ![8, 512, 512, 1, 3]⟩
/-- The packed face table: `[800000, 3, 3]` (face, vertex, channel). -/
abbrev Tab : Shape := ⟨3, ![800000, 3, 3]⟩
/-- The result image: `[8, 4, 512, 512]` (image, channel, row, column). -/
abbrev Img : Shape := ⟨4, ![8, 4, 512, 512]⟩

/-- The bit "this pixel is empty": its face word is `-1`. -/
def isEmpty (p : BitVec 32) : BitVec 1 := IntOp.cmpi .eq p 4294967295#32

/-- numpy's reading of a negative index: `q + 800000` when `q < 0`. -/
def wrap (q : BitVec 32) : BitVec 32 := Scalar.select (IntOp.cmpi .slt q 0#32) (IntOp.addi q 800000#32) q

/-- The table row a (wrapped) word selects: read signed, clamped into `[0, 799999]`. -/
def row (q : BitVec 32) : Fin 800000 := ⟨min q.toInt.toNat 799999, by omega⟩

/-- The barycentric interpolation of channel `ch` of the face the word `q` selects. -/
def shade (b : Fin 3 → EReal) (tab : Tab.Idx → EReal) (q : BitVec 32) (ch : Fin 3) : EReal :=
  Ideal.ofBits .f32 0x00000000#32 + ∑ v : Fin 3, b v * tab (ix3 (row (wrap q)) v ch)

/-- The result image, index by index. -/
def G (pix : IVec Pix 32) (bary : Bary.Idx → EReal) (tab : Tab.Idx → EReal) : Img.Idx → EReal := fun i =>
  if h : (i 1).val < 3 then
    Scalar.select (isEmpty (pix (ix4 (i 0) (i 2) (i 3) 0))) (Ideal.ofBits .f32 0x00000000#32)
      (shade (fun v => bary (ix5 (i 0) (i 2) (i 3) 0 v)) tab
        (Scalar.select (isEmpty (pix (ix4 (i 0) (i 2) (i 3) 0))) 0#32 (pix (ix4 (i 0) (i 2) (i 3) 0))) ⟨(i 1).val, h⟩)
  else
    FloatOps.uitofp (F := Ideal) .f32 (~~~ isEmpty (pix (ix4 (i 0) (i 2) (i 3) 0)))

/-- How the kernel lays an image out: three colour planes `a` then one mask plane `b`. -/
def layout (a : (⟨4, ![8, 3, 512, 512]⟩ : Shape).Idx → EReal) (b : (⟨3, ![8, 512, 512]⟩ : Shape).Idx → EReal) :
    Img.Idx → EReal := fun i =>
  if h : (i 1).val < 3 then a (ix4 (i 0) ⟨(i 1).val, h⟩ (i 2) (i 3)) else b (ix3 (i 0) (i 2) (i 3))

end Cert.Raster

end
-- ==== Proof.KernelBlocks.lean ====
/-
  The kernel's output array after the run, as ONE function of the two arrays its windows stage.

  The grid has 8 points; point t stages image t of the colour planes (a block [1,3,512,512]) and image t of the
  mask plane (a block [1,512,512]), and its body stores the first into channels 0..2 of the output block [1,4,512,512]
  and the second into channel 3. So the output array [8,4,512,512] ends as the colour planes followed by the mask plane,
  image by image: `Cert.Raster.layout`.
-/
import proofs.«144430_j57518202028323_2_alg».proof.Proof.Gen.KernelIdeal.Value
import proofs.«144430_j57518202028323_2_alg».proof.Proof.Raster
import Idealize.ShloMosaic.Lib.Pipeline.Value
import Idealize.ShloMosaic.Lib.ValueIdx
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

/-! ## What one grid point leaves in the output block -/

/-- One output block `[1,4,512,512]` as a function of the two staged blocks: the colour block `x0 : [1,3,512,512]` on
    channels `0..2`, the mask block `x1 : [1,512,512]` on channel `3`. -/
def block {α : Type} (x0 : S1x3x512x512.Idx → α) (x1 : S1x512x512.Idx → α) : S1x4x512x512.Idx → α := fun y =>
  if h : (y 1).val < 3 then x0 (ix4 (y 0) ⟨(y 1).val, h⟩ (y 2) (y 3)) else x1 (ix3 (y 0) (y 2) (y 3))

section AnyValues
variable {α : Type}

/-- The colour block, stored at offset `(0,0,0,0)`, is the block function under its rectangle. -/
theorem block_colour (x0 : S1x3x512x512.Idx → α) (x1 : S1x512x512.Idx → α)
    (inb : ∀ a, (![0, 0, 0, 0] : Fin 4 → Nat) a + (![1, 3, 512, 512] : Fin 4 → Nat) a ≤ S1x4x512x512.size a)
    (x : (Rect.unit (s := S1x4x512x512) ![0, 0, 0, 0] ![1, 3, 512, 512] inb).shape.Idx) :
    x0 x = block x0 x1 ((Rect.unit (s := S1x4x512x512) ![0, 0, 0, 0] ![1, 3, 512, 512] inb).emb x) := by
  have h1 : (x 1).val < 3 := (x 1).isLt
  have hlt : (((Rect.unit (s := S1x4x512x512) ![0, 0, 0, 0] ![1, 3, 512, 512] inb).emb x) 1).val < 3 := by
    show 0 + 1 * (x 1).val < 3
    omega
  unfold block
  rw [dif_pos hlt]
  refine congrArg x0 (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 3).val = 0 + 1 * (x 3).val; omega

/-- The mask block, given a leading unit channel axis and stored at offset `(0,3,0,0)`, is the block function under
    its rectangle. -/
theorem block_mask (x0 : S1x3x512x512.Idx → α) (x1 : S1x512x512.Idx → α)
    (inb : ∀ a, (![0, 3, 0, 0] : Fin 4 → Nat) a + (![1, 1, 512, 512] : Fin 4 → Nat) a ≤ S1x4x512x512.size a)
    (x : (Rect.unit (s := S1x4x512x512) ![0, 3, 0, 0] ![1, 1, 512, 512] inb).shape.Idx) :
    x1 (fun a => x a.succ) = block x0 x1 ((Rect.unit (s := S1x4x512x512) ![0, 3, 0, 0] ![1, 1, 512, 512] inb).emb x) := by
  have h0 : (x 0).val < 1 := (x 0).isLt
  have h1 : (x 1).val < 1 := (x 1).isLt
  have hge : ¬ (((Rect.unit (s := S1x4x512x512) ![0, 3, 0, 0] ![1, 1, 512, 512] inb).emb x) 1).val < 3 := by
    show ¬ 3 + 1 * (x 1).val < 3
    omega
  unfold block
  rw [dif_neg hge]
  refine congrArg x1 (funext fun a => Fin.ext ?_)
  match a with
  | ⟨0, _⟩ => show (x 1).val = 0 + 1 * (x 0).val; omega
  | ⟨1, _⟩ => show (x 2).val = 0 + 1 * (x 2).val; omega
  | ⟨2, _⟩ => show (x 3).val = 0 + 1 * (x 3).val; omega

end AnyValues

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- WHAT THE BODY LEAVES in the output's staging buffer, on any whole staging memrefs holding the blocks `x0`, `x1`:
    the block function of the two. The run's two stores (last first: the mask at channel 3, the colours at channels
    0..2) cover the block, and each store's payload is a shape cast of what it loaded. -/
theorem out_eq (c : Dev nD) (i : grid0.Coords) (arg1 : Memref sig .tc .vmem S1x3x512x512 .f32) (harg1 : arg1.IsWhole)
    (arg2 : Memref sig .tc .vmem S1x512x512 .f32) (harg2 : arg2.IsWhole) (arg3 : Memref sig .tc .vmem S1x4x512x512 .f32)
    (harg3 : arg3.IsWhole) (x0 : Vec F S1x3x512x512 .f32) (x1 : Vec F S1x512x512 .f32) :
    out0_A_2 c i arg1 harg1 arg2 harg2 arg3 harg3 x0 x1 = block x0 x1 := by
  have hcov := cover0_A_2 c i arg1 harg1 arg2 harg2 arg3 harg3 x0 x1
  unfold out0_A_2
  rw [View.read_writes_eq_canon _ _ _ hcov]
  unfold kernelRun0_A at hcov ⊢
  dsimp only at hcov ⊢
  sl_unfold_words
  funext y
  refine View.canon_apply_of_pieces (block x0 x1) _ ?_ y (hcov y)
  intro p hp x
  rcases List.mem_cons.mp hp with rfl | hp
  · -- the mask store: a shape cast adding the unit channel axis
    refine Eq.trans ?_ (block_mask x0 x1 inb_S1x4x512x512_S1x1x512x512_0_3_0_0 x)
    dsimp only
    unfold k0_pay2
    simp only [View.readAt_eq_ld, harg2.read_unread, View.ld_unit_zero (S := S1x512x512) hz3, shapeCast_self]
    exact shapeCast_addUnit_apply ![1, 512, 512] x1 _ x
  · -- the colour store: a shape cast to the same shape
    obtain rfl := List.mem_singleton.mp hp
    refine Eq.trans ?_ (block_colour x0 x1 inb_S1x4x512x512_S1x3x512x512_0_0_0_0 x)
    dsimp only
    unfold k0_pay1
    simp only [View.readAt_eq_ld, harg1.read_unread, View.ld_unit_zero (S := S1x3x512x512) hz4, shapeCast_self]

/-! ## From blocks to the array -/

/-- The printed index maps, decided over the 8 grid points: point `t` stages image `t` of each array, at block index
    `0` on every other axis. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- When the two staged blocks are image `n` of the arrays `A` and `B`, the block function is the layout of `A`, `B`
    read at image `n`. -/
theorem block_eq_layout (A : S8x3x512x512.Idx → EReal) (B : S8x512x512.Idx → EReal)
    (x0 : S1x3x512x512.Idx → EReal) (x1 : S1x512x512.Idx → EReal) (n : Fin 8)
    (h0 : ∀ y : S1x3x512x512.Idx, x0 y = A (ix4 n (y 1) (y 2) (y 3)))
    (h1 : ∀ y : S1x512x512.Idx, x1 y = B (ix3 n (y 1) (y 2)))
    (y : S1x4x512x512.Idx) :
    block x0 x1 y = Cert.Raster.layout A B (ix4 n (y 1) (y 2) (y 3)) := by
  unfold block Cert.Raster.layout
  by_cases h : (y 1).val < 3
  · rw [dif_pos h, dif_pos (show ((ix4 n (y 1) (y 2) (y 3) : S8x4x512x512.Idx) 1).val < 3 from h), h0]
  · rw [dif_neg h, dif_neg (show ¬ ((ix4 n (y 1) (y 2) (y 3) : S8x4x512x512.Idx) 1).val < 3 from h), h1]

variable (m : (ℓ : Loc nD τ sig) → Buf (Elt Ideal) ℓ)

/-- WHAT POINT `t` WRITES BACK is block `t` of the layout of the two staged arrays as the region finds them. -/
theorem flushed_eq (c : Dev nD) (t : Fin cfg0.N) :
    (dats m 0 c).flushed 2 t
      = ((cfg0.win 2).blk t).view.read (Elt Ideal) (Cert.Raster.layout (V m c main_v19) (V m c main_v21)) := by
  have ht : t.val < 8 := Nat.lt_of_lt_of_eq t.isLt (N_0 : cfg0.N = 8)
  obtain ⟨a0, a1, a2, a3, b0, b1, b2, o0, o1, o2, o3⟩ := idx_facts t
  refine (Value.flushed2_A m c t).trans ?_
  refine (congrArg ((cfg0.win 2).cut (grid0.coords t))
    (out_eq (F := Ideal) c (grid0.coords t) (ms0_0 t) (hs0_0 t) (ms0_1 t) (hs0_1 t) (ms0_2 t) (hs0_2 t)
      (iblk m c 0 t) (iblk m c 1 t))).trans ?_
  funext j
  show block (iblk m c 0 t) (iblk m c 1 t) ((cfg0.win 2).xinj (grid0.coords t) j)
    = Cert.Raster.layout (V m c main_v19) (V m c main_v21) (((cfg0.win 2).blk t).view.emb j)
  refine (block_eq_layout (V m c main_v19) (V m c main_v21) (iblk m c 0 t) (iblk m c 1 t) ⟨t.val, ht⟩ ?_ ?_ _).trans ?_
  · intro y
    show V m c main_v19 (((cfg0.win 0).blk t).view.emb y) = V m c main_v19 _
    refine congrArg (V m c main_v19) (funext fun a => Fin.ext ?_)
    have hy0 : (y 0).val < 1 := (y 0).isLt
    match a with
    | ⟨0, _⟩ => show win0_0.index t (0 : Fin 4) * 1 + 1 * (y 0).val = t.val; omega
    | ⟨1, _⟩ => show win0_0.index t (1 : Fin 4) * 3 + 1 * (y 1).val = (y 1).val; omega
    | ⟨2, _⟩ => show win0_0.index t (2 : Fin 4) * 512 + 1 * (y 2).val = (y 2).val; omega
    | ⟨3, _⟩ => show win0_0.index t (3 : Fin 4) * 512 + 1 * (y 3).val = (y 3).val; omega
  · intro y
    show V m c main_v21 (((cfg0.win 1).blk t).view.emb y) = V m c main_v21 _
    refine congrArg (V m c main_v21) (funext fun a => Fin.ext ?_)
    have hy0 : (y 0).val < 1 := (y 0).isLt
    match a with
    | ⟨0, _⟩ => show win0_1.index t (0 : Fin 3) * 1 + 1 * (y 0).val = t.val; omega
    | ⟨1, _⟩ => show win0_1.index t (1 : Fin 3) * 512 + 1 * (y 1).val = (y 1).val; omega
    | ⟨2, _⟩ => show win0_1.index t (2 : Fin 3) * 512 + 1 * (y 2).val = (y 2).val; omega
  · refine congrArg (Cert.Raster.layout (V m c main_v19) (V m c main_v21)) (funext fun a => Fin.ext ?_)
    have hj0 : (j 0).val < 1 := (j 0).isLt
    match a with
    | ⟨0, _⟩ => show t.val = win0_2.index t (0 : Fin 4) * 1 + 1 * (j 0).val; omega
    | ⟨1, _⟩ => show (j 1).val = win0_2.index t (1 : Fin 4) * 4 + 1 * (j 1).val; omega
    | ⟨2, _⟩ => show (j 2).val = win0_2.index t (2 : Fin 4) * 512 + 1 * (j 2).val; omega
    | ⟨3, _⟩ => show (j 3).val = win0_2.index t (3 : Fin 4) * 512 + 1 * (j 3).val; omega

/-- An index of the array is in point `t`'s block iff each coordinate is in the block's range on its axis. -/
theorem mem_blk (t : Fin cfg0.N) (i : S8x4x512x512.Idx) :
    i ∈ ((cfg0.win 2).blk t).view.set
      ↔ ∀ a : Fin 4, win0_2.index t a * S1x4x512x512.size a ≤ (i a).val
          ∧ (i a).val < win0_2.index t a * S1x4x512x512.size a + S1x4x512x512.size a := by
  show i ∈ ((View.whole main_v22).slice (win0_2.rect t)).set ↔ _
  rw [View.set_slice_whole, Rect.mem_set_unit]
  exact Iff.rfl

/-- Every index of the output array is in the block of the point of its image. -/
theorem cover (i : S8x4x512x512.Idx) :
    ∃ t : Fin cfg0.N, (cfg0.win 2).flush t = true ∧ i ∈ ((cfg0.win 2).blk t).view.set := by
  have hi0 : (i 0).val < 8 := (i 0).isLt
  have hi1 : (i 1).val < 4 := (i 1).isLt
  have hi2 : (i 2).val < 512 := (i 2).isLt
  have hi3 : (i 3).val < 512 := (i 3).isLt
  refine ⟨⟨(i 0).val, Nat.lt_of_lt_of_eq hi0 (N_0 : cfg0.N = 8).symm⟩, flush0_2 _, ?_⟩
  rw [mem_blk]
  obtain ⟨a0, a1, a2, a3, b0, b1, b2, o0, o1, o2, o3⟩ := idx_facts ⟨(i 0).val, Nat.lt_of_lt_of_eq hi0 (N_0 : cfg0.N = 8).symm⟩
  intro a
  match a with
  | ⟨0, _⟩ =>
    show win0_2.index _ (0 : Fin 4) * 1 ≤ (i 0).val ∧ (i 0).val < win0_2.index _ (0 : Fin 4) * 1 + 1
    rw [o0]; dsimp only; omega
  | ⟨1, _⟩ =>
    show win0_2.index _ (1 : Fin 4) * 4 ≤ (i 1).val ∧ (i 1).val < win0_2.index _ (1 : Fin 4) * 4 + 4
    rw [o1]; omega
  | ⟨2, _⟩ =>
    show win0_2.index _ (2 : Fin 4) * 512 ≤ (i 2).val ∧ (i 2).val < win0_2.index _ (2 : Fin 4) * 512 + 512
    rw [o2]; omega
  | ⟨3, _⟩ =>
    show win0_2.index _ (3 : Fin 4) * 512 ≤ (i 3).val ∧ (i 3).val < win0_2.index _ (3 : Fin 4) * 512 + 512
    rw [o3]; omega

/-- THE OUTPUT ARRAY AFTER THE RUN: the layout of the two arrays its windows stage — the colour planes on channels
    `0..2`, the mask plane on channel `3`, image by image. -/
theorem final (c : Dev nD) :
    (dats m 0 c).arrAt 2 cfg0.N = Cert.Raster.layout (V m c main_v19) (V m c main_v21) :=
  (dats m 0 c).arrAt_eq_of_cover 2 (Cert.Raster.layout (V m c main_v19) (V m c main_v21))
    (fun t _ => flushed_eq m c t) cover

end Cert.KernelIdeal.Blocks

end
-- ==== Proof.KernelHost.lean ====
/-
  What the kernel program computes on the host BEFORE its one kernel launch, as whole-array functions of the three
  arguments: the colour planes `planes` (`[8, 3, 512, 512]`: per pixel and channel the barycentric sum over the three
  vertices of the selected face's row, the weights zeroed on an empty pixel, transposed channel-first) and the
  visibility plane `visible` (`[8, 512, 512]`: `1` where the pixel has a face, `0` where it is empty). Here a pixel
  counts as empty when its face word is NEGATIVE. The two arrays the launch's input windows stage hold exactly
  these (`V_planes`, `V_visible`).
-/
import proofs.«144430_j57518202028323_2_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- The face words, one per pixel. -/
def faces (pix : IVec S8x512x512x1 32) : IVec S8x512x512 32 :=
  shapeCast _ pix shapeCasts_S8x512x512x1_S8x512x512

/-- The bit "the face word is negative". -/
def emptyBit (pix : IVec S8x512x512x1 32) : IVec S8x512x512 1 :=
  cmpi .slt (faces pix) (broadcastInDim S8x512x512 ![] bcast_S_S8x512x512 (constantI S_ 32 0#32))

/-- The face word with a negative one replaced by `0`. -/
def safe (pix : IVec S8x512x512x1 32) : IVec S8x512x512 32 :=
  select (emptyBit pix) (broadcastInDim S8x512x512 ![] bcast_S_S8x512x512 (id (constantI S_ 32 0#32))) (faces pix)

/-- The barycentric weights, zeroed where the face word is negative. -/
def weights (pix : IVec S8x512x512x1 32) (bary : FVec F S8x512x512x1x3 .f32) : FVec F S8x512x512x3 .f32 :=
  select
    (broadcastInDim S8x512x512x3 ![0, 1, 2, 3] bcast_S8x512x512x1_S8x512x512x3_0_1_2_3
      (broadcastInDim S8x512x512x1 ![0, 1, 2] bcast_S8x512x512_S8x512x512x1_0_1_2 (emptyBit pix)))
    (broadcastInDim S8x512x512x3 ![] bcast_S_S8x512x512x3 (constant S_ .f32 0x00000000#32))
    (shapeCast _ bary shapeCasts_S8x512x512x1x3_S8x512x512x3)

/-- The safe face word with a negative value wrapped by `+800000`. -/
def wrapped (pix : IVec S8x512x512x1 32) : IVec S8x512x512 32 :=
  select (cmpi .slt (safe pix) (broadcastInDim S8x512x512 ![] bcast_S_S8x512x512 (constantI S_ 32 0#32)))
    (addi (safe pix) (broadcastInDim S8x512x512 ![] bcast_S_S8x512x512 (constantI S_ 32 800000#32)))
    (safe pix)

/-- Per pixel, the `3 × 3` row of the packed face table its word selects. -/
def rows (pix : IVec S8x512x512x1 32) (tab : FVec F S800000x3x3 .f32) : FVec F S8x512x512x3x3 .f32 :=
  Host.gather gather_S800000x3x3_S8x512x512x1_S8x512x512x3x3_34_0_n_n_0_3_133 tab
    (broadcastInDim S8x512x512x1 ![0, 1, 2] bcast_S8x512x512_S8x512x512x1_0_1_2 (wrapped pix))

/-- Weight times table entry, per pixel, vertex and channel. -/
def products (pix : IVec S8x512x512x1 32) (bary : FVec F S8x512x512x1x3 .f32) (tab : FVec F S800000x3x3 .f32) :
    FVec F S8x512x512x3x3 .f32 :=
  mulf
    (broadcastInDim S8x512x512x3x3 ![0, 1, 2, 3, 4] bcast_S8x512x512x3x1_S8x512x512x3x3_0_1_2_3_4
      (broadcastInDim S8x512x512x3x1 ![0, 1, 2, 3] bcast_S8x512x512x3_S8x512x512x3x1_0_1_2_3 (weights pix bary)))
    (rows pix tab)

/-- The sum over the three vertices. -/
def shaded (pix : IVec S8x512x512x1 32) (bary : FVec F S8x512x512x1x3 .f32) (tab : FVec F S800000x3x3 .f32) :
    FVec F S8x512x512x3 .f32 :=
  Host.reduceAdd (products pix bary tab) (constant S_ .f32 0x00000000#32) reducesTo_S8x512x512x3x3_S8x512x512x3_d3 h_S_

/-- The colour planes, channel-first. -/
def planes (pix : IVec S8x512x512x1 32) (bary : FVec F S8x512x512x1x3 .f32) (tab : FVec F S800000x3x3 .f32) :
    FVec F S8x3x512x512 .f32 :=
  transpose S8x3x512x512 [0, 3, 1, 2] (shaded pix bary tab) transposes_S8x512x512x3_S8x3x512x512_0_3_1_2

/-- The visibility plane. -/
def visible (pix : IVec S8x512x512x1 32) : FVec F S8x512x512 .f32 :=
  uitofp .f32 (noti (emptyBit pix))

/-- The packed face table: the attribute array `[8, 100000, 3, 3]` reshaped to `[800000, 3, 3]`. -/
def table (attr : FVec F S8x100000x3x3 .f32) : FVec F S800000x3x3 .f32 :=
  shapeCast _ attr shapeCasts_S8x100000x3x3_S800000x3x3

variable (m : (ℓ : Loc nD τ sig) → Buf (Elt F) ℓ)

/-- The array input window 0 stages is the colour planes of the arguments. -/
theorem V_planes (c : Dev nD) :
    (V m c main_v19 : S8x3x512x512.Idx → F .f32)
      = planes (m ((c : Thread nD τ).loc main_arg0)) (m ((c : Thread nD τ).loc main_arg1))
          (table (m ((c : Thread nD τ).loc main_arg2))) := by
  dsimp only [V]
  simp only [hostOps0, hostOps0_1, hostOps0_2, hostOps0_3, hostOps0_4, List.flatten_cons, List.flatten_nil,
    List.append_nil, List.cons_append, List.nil_append]
  after_results_simp
  rfl

/-- The array input window 1 stages is the visibility plane of the face words. -/
theorem V_visible (c : Dev nD) :
    (V m c main_v21 : S8x512x512.Idx → F .f32) = visible (m ((c : Thread nD τ).loc main_arg0)) := by
  dsimp only [V]
  simp only [hostOps0, hostOps0_1, hostOps0_2, hostOps0_3, hostOps0_4, List.flatten_cons, List.flatten_nil,
    List.append_nil, List.cons_append, List.nil_append]
  after_results_simp
  rfl

end Cert.KernelIdeal.Host

end
-- ==== Proof.GatherRows.lean ====
/-
  The gather of whole rows of the packed face table `[800000, 3, 3]`, read at coordinates. Each result element
  `(pixel…, v, ch)` is the table's element `(r, v, ch)` where `r` is the pixel's start word read signed and clamped
  into `[0, 799999]` (`Cert.Raster.row`): the first table axis is collapsed and is the only one the start index
  names, the other two are offset axes of full extent, whose start is `0`.
-/
import proofs.«144430_j57518202028323_2_alg».proof.KernelIdeal
import proofs.«144430_j57518202028323_2_alg».proof.ReferenceIdeal
import proofs.«144430_j57518202028323_2_alg».proof.Proof.Raster
import Idealize.ShloMosaic.Lib.ValueIdx

noncomputable section

namespace Cert.Raster

open Idealize.ShloMosaic Idealize.ShloMosaic.ValueIdx

local notation "dK" => Cert.KernelIdeal.gather_S800000x3x3_S8x512x512x1_S8x512x512x3x3_34_0_n_n_0_3_133
local notation "dR" => Cert.ReferenceIdeal.gather_S800000x3x3_S8x512x512x1x1_S8x512x512x1x3x3_45_0_n_n_0_4_133

/-- The table axes that are not collapsed, in order: vertex (1) then channel (2). The first offset axis of the
    result reads the vertex axis, the second the channel axis. -/
private theorem sKeptK [Cert.KernelIdeal.Facts₀] : (dK).sKept = [1, 2] := by
  show Shape.kept Cert.KernelIdeal.S800000x3x3 ([0] ++ []) = [1, 2]
  decide

/-- The same for the reference program's record. -/
private theorem sKeptR [Cert.ReferenceIdeal.Facts₀] : (dR).sKept = [1, 2] := by
  show Shape.kept Cert.ReferenceIdeal.S800000x3x3 ([0] ++ []) = [1, 2]
  decide

/-- The kernel program's gather (start words `[8, 512, 512, 1]`, result `[8, 512, 512, 3, 3]`) at `(n, h, w, v, ch)`. -/
theorem gatherK_apply [Cert.KernelIdeal.Facts₀] {α : Type} (x : Cert.KernelIdeal.S800000x3x3.Idx → α)
    (idx : IVec Cert.KernelIdeal.S8x512x512x1 32) (n : Fin 8) (h w : Fin 512) (v ch : Fin 3) :
    Host.gather Cert.KernelIdeal.gather_S800000x3x3_S8x512x512x1_S8x512x512x3x3_34_0_n_n_0_3_133 x idx (ix5 n h w v ch)
      = x (ix3 (row (idx (ix4 n h w 0))) v ch) := by
  -- the operand index, axis by axis: clamped start + batching coordinate + offset coordinate
  unfold Host.gather
  congr 1
  funext a
  refine Fin.ext ?_
  match a with
  | ⟨0, _⟩ =>
    -- the collapsed face axis: no batching, no offset; the start word read signed and clamped into `[0, 800000 - 1]`
    show GatherDims.start dK _ idx 0 + GatherDims.batchCoord dK _ 0 + GatherDims.offCoord dK _ 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    have hmem : (0 : Fin 3) ∈ (dK).startIndexMap := List.mem_singleton.mpr rfl
    rw [dif_pos hmem]
    -- the start word of result index `(n, h, w, v, ch)` sits at `(n, h, w, 0)`: the batch coordinates, then component 0
    have hsi : (dK).siIdx (ix5 n h w v ch) ⟨List.idxOf (0 : Fin 3) (dK).startIndexMap,
        List.idxOf_lt_length_iff.2 hmem⟩ = ix4 n h w 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    -- the vertex axis: not named by the start index (start 0), first kept axis, read by result axis 3
    show GatherDims.start dK _ idx 1 + GatherDims.batchCoord dK _ 1 + GatherDims.offCoord dK _ 1 = _
    rw [GatherDims.batchCoord_eq_zero _ _ _ List.not_mem_nil]
    unfold GatherDims.start
    have hnm : (1 : Fin 3) ∉ (dK).startIndexMap := by
      intro hm; exact absurd (List.mem_singleton.mp hm) (by decide)
    rw [dif_neg hnm]
    unfold GatherDims.offCoord
    have hk : (1 : Fin 3) ∈ (dK).sKept :=
      (GatherDims.mem_sKept _ _).mpr ⟨fun hm => absurd (List.mem_singleton.mp hm) (by decide), List.not_mem_nil⟩
    rw [dif_pos hk]
    have hix : List.idxOf (1 : Fin 3) (dK).sKept = 0 := by rw [sKeptK]; rfl
    have key : ∀ (k : Nat) (hk : k < (dK).offsetDims.length), k = 0 →
        ((ix5 n h w v ch) ((dK).offsetDims[k]'hk)).val = (v).val := by
      intro k hk e; subst e; rfl
    simp only [Nat.zero_add]
    exact key _ _ hix
  | ⟨2, _⟩ =>
    -- the channel axis: start 0, second kept axis, read by result axis 4
    show GatherDims.start dK _ idx 2 + GatherDims.batchCoord dK _ 2 + GatherDims.offCoord dK _ 2 = _
    rw [GatherDims.batchCoord_eq_zero _ _ _ List.not_mem_nil]
    unfold GatherDims.start
    have hnm : (2 : Fin 3) ∉ (dK).startIndexMap := by
      intro hm; exact absurd (List.mem_singleton.mp hm) (by decide)
    rw [dif_neg hnm]
    unfold GatherDims.offCoord
    have hk : (2 : Fin 3) ∈ (dK).sKept :=
      (GatherDims.mem_sKept _ _).mpr ⟨fun hm => absurd (List.mem_singleton.mp hm) (by decide), List.not_mem_nil⟩
    rw [dif_pos hk]
    have hix : List.idxOf (2 : Fin 3) (dK).sKept = 1 := by rw [sKeptK]; rfl
    have key : ∀ (k : Nat) (hk : k < (dK).offsetDims.length), k = 1 →
        ((ix5 n h w v ch) ((dK).offsetDims[k]'hk)).val = (ch).val := by
      intro k hk e; subst e; rfl
    simp only [Nat.zero_add]
    exact key _ _ hix

/-- The reference program's gather (start words `[8, 512, 512, 1, 1]`, result `[8, 512, 512, 1, 3, 3]`) at an index `j`. -/
theorem gatherR_apply [Cert.ReferenceIdeal.Facts₀] {α : Type} (x : Cert.ReferenceIdeal.S800000x3x3.Idx → α)
    (idx : IVec Cert.ReferenceIdeal.S8x512x512x1x1 32) (j : Cert.ReferenceIdeal.S8x512x512x1x3x3.Idx) :
    Host.gather Cert.ReferenceIdeal.gather_S800000x3x3_S8x512x512x1x1_S8x512x512x1x3x3_45_0_n_n_0_4_133 x idx j
      = x (ix3 (row (idx (ix5 (⟨(j 0).val, (j 0).isLt⟩ : Fin 8) (⟨(j 1).val, (j 1).isLt⟩ : Fin 512) (⟨(j 2).val, (j 2).isLt⟩ : Fin 512) (0 : Fin 1) (0 : Fin 1))))
          (⟨(j 4).val, (j 4).isLt⟩ : Fin 3) (⟨(j 5).val, (j 5).isLt⟩ : Fin 3)) := by
  unfold Host.gather
  congr 1
  funext a
  refine Fin.ext ?_
  match a with
  | ⟨0, _⟩ =>
    -- the collapsed face axis: no batching, no offset; the start word read signed and clamped into `[0, 800000 - 1]`
    show GatherDims.start dR _ idx 0 + GatherDims.batchCoord dR _ 0 + GatherDims.offCoord dR _ 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    have hmem : (0 : Fin 3) ∈ (dR).startIndexMap := List.mem_singleton.mpr rfl
    rw [dif_pos hmem]
    -- the start word of result index `j` sits at `(j 0, j 1, j 2, j 3, 0)`, and `j 3` ranges over one value
    have hsi : (dR).siIdx j ⟨List.idxOf (0 : Fin 3) (dR).startIndexMap,
        List.idxOf_lt_length_iff.2 hmem⟩
        = ix5 (⟨(j 0).val, (j 0).isLt⟩ : Fin 8) (⟨(j 1).val, (j 1).isLt⟩ : Fin 512) (⟨(j 2).val, (j 2).isLt⟩ : Fin 512) (0 : Fin 1) (0 : Fin 1) := by
      funext b; refine Fin.ext ?_
      match b with
      | ⟨0, _⟩ => rfl
      | ⟨1, _⟩ => rfl
      | ⟨2, _⟩ => rfl
      | ⟨3, _⟩ =>
        have h3 : (j 3).val < 1 := (j 3).isLt
        show (j 3).val = 0
        omega
      | ⟨4, _⟩ => rfl
    rw [hsi]
    rfl
  | ⟨1, _⟩ =>
    -- the vertex axis: start 0, first kept axis, read by result axis 4
    show GatherDims.start dR _ idx 1 + GatherDims.batchCoord dR _ 1 + GatherDims.offCoord dR _ 1 = _
    rw [GatherDims.batchCoord_eq_zero _ _ _ List.not_mem_nil]
    unfold GatherDims.start
    have hnm : (1 : Fin 3) ∉ (dR).startIndexMap := by
      intro hm; exact absurd (List.mem_singleton.mp hm) (by decide)
    rw [dif_neg hnm]
    unfold GatherDims.offCoord
    have hk : (1 : Fin 3) ∈ (dR).sKept :=
      (GatherDims.mem_sKept _ _).mpr ⟨fun hm => absurd (List.mem_singleton.mp hm) (by decide), List.not_mem_nil⟩
    rw [dif_pos hk]
    have hix : List.idxOf (1 : Fin 3) (dR).sKept = 0 := by rw [sKeptR]; rfl
    have key : ∀ (k : Nat) (hk : k < (dR).offsetDims.length), k = 0 →
        ((j) ((dR).offsetDims[k]'hk)).val = (j 4).val := by
      intro k hk e; subst e; rfl
    simp only [Nat.zero_add]
    exact key _ _ hix
  | ⟨2, _⟩ =>
    -- the channel axis: start 0, second kept axis, read by result axis 5
    show GatherDims.start dR _ idx 2 + GatherDims.batchCoord dR _ 2 + GatherDims.offCoord dR _ 2 = _
    rw [GatherDims.batchCoord_eq_zero _ _ _ List.not_mem_nil]
    unfold GatherDims.start
    have hnm : (2 : Fin 3) ∉ (dR).startIndexMap := by
      intro hm; exact absurd (List.mem_singleton.mp hm) (by decide)
    rw [dif_neg hnm]
    unfold GatherDims.offCoord
    have hk : (2 : Fin 3) ∈ (dR).sKept :=
      (GatherDims.mem_sKept _ _).mpr ⟨fun hm => absurd (List.mem_singleton.mp hm) (by decide), List.not_mem_nil⟩
    rw [dif_pos hk]
    have hix : List.idxOf (2 : Fin 3) (dR).sKept = 1 := by rw [sKeptR]; rfl
    have key : ∀ (k : Nat) (hk : k < (dR).offsetDims.length), k = 1 →
        ((j) ((dR).offsetDims[k]'hk)).val = (j 5).val := by
      intro k hk e; subst e; rfl
    simp only [Nat.zero_add]
    exact key _ _ hix

end Cert.Raster

end
-- ==== Proof.KernelHostRead.lean ====
/-
  The kernel program's host stages read at coordinates, on the extended reals: at pixel `(n, h, w)` with face word
  `p`, vertex `v`, channel `ch` — the reshapes and broadcasts only re-index, the comparison, the selects, the
  product and the wrap act element by element, the gather reads the table row the wrapped word selects, and the
  vertex sum is the initial value plus the sum over `v`. Put together (`planes_coords`, `visible_coords`):

    planes  (n, ch, h, w) = 0 + Σ_v  (if p < 0 then 0 else b v) · table[row (if p < 0 then 0 else p), v, ch]
    visible (n, h, w)     = the bit ¬(p < 0) as a number.
-/
import proofs.«144430_j57518202028323_2_alg».proof.Proof.KernelHost
import proofs.«144430_j57518202028323_2_alg».proof.Proof.Raster
import proofs.«144430_j57518202028323_2_alg».proof.Proof.GatherRows
import Idealize.ShloMosaic.Lib.ValueIdx
import Idealize.ShloMosaic.Lib.Pipeline.Value
import Idealize.ShloMosaic.PureOps.Ideal.Laws

noncomputable section

open scoped BigOperators

namespace Cert.KernelIdeal.Host

open Cert.KernelIdeal Cert.KernelIdeal.Gen Idealize.ShloMosaic Idealize.ShloMosaic.ValueIdx

/-! ## The re-indexing operations at coordinates -/

section Layout
variable {α : Type}

/-- `[8,512,512,1] → [8,512,512]`: the same pixel. -/
theorem cast_pix (x : S8x512x512x1.Idx → α) (n : Fin 8) (h w : Fin 512) :
    shapeCast S8x512x512 x shapeCasts_S8x512x512x1_S8x512x512 (ix3 n h w) = x (ix4 n h w 0) :=
  shapeCast_apply x shapeCasts_S8x512x512x1_S8x512x512 (ix3 n h w) (ix4 n h w 0)
    (by rewrite [Shape.rowMajor_val_four, Shape.rowMajor_val_three]
        show ((n.val * 512 + h.val) * 512 + w.val) * 1 + 0 = (n.val * 512 + h.val) * 512 + w.val
        omega)

/-- `[8,512,512,1,3] → [8,512,512,3]`: the same pixel and vertex. -/
theorem cast_bary (x : S8x512x512x1x3.Idx → α) (n : Fin 8) (h w : Fin 512) (v : Fin 3) :
    shapeCast S8x512x512x3 x shapeCasts_S8x512x512x1x3_S8x512x512x3 (ix4 n h w v) = x (ix5 n h w 0 v) :=
  shapeCast_apply x shapeCasts_S8x512x512x1x3_S8x512x512x3 (ix4 n h w v) (ix5 n h w 0 v)
    (by rewrite [Shape.rowMajor_val_five, Shape.rowMajor_val_four]
        show (((n.val * 512 + h.val) * 512 + w.val) * 1 + 0) * 3 + v.val = ((n.val * 512 + h.val) * 512 + w.val) * 3 + v.val
        omega)

/-- `[8,512,512] → [8,512,512,1]`. -/
theorem bcast_pix1 (x : S8x512x512.Idx → α) (n : Fin 8) (h w : Fin 512) (z : Fin 1) :
    broadcastInDim S8x512x512x1 ![0, 1, 2] bcast_S8x512x512_S8x512x512x1_0_1_2 x (ix4 n h w z) = x (ix3 n h w) :=
  broadcastInDim_apply _ bcast_S8x512x512_S8x512x512x1_0_1_2 x (ix4 n h w z) (ix3 n h w) (fun a => match a with
    | ⟨0, _⟩ => by show n.val = if (8 : Nat) = 1 then 0 else n.val; rw [if_neg (by decide)]
    | ⟨1, _⟩ => by show h.val = if (512 : Nat) = 1 then 0 else h.val; rw [if_neg (by decide)]
    | ⟨2, _⟩ => by show w.val = if (512 : Nat) = 1 then 0 else w.val; rw [if_neg (by decide)])

/-- `[8,512,512,1] → [8,512,512,3]`: every vertex reads the pixel's one entry. -/
theorem bcast_pix3 (x : S8x512x512x1.Idx → α) (n : Fin 8) (h w : Fin 512) (v : Fin 3) :
    broadcastInDim S8x512x512x3 ![0, 1, 2, 3] bcast_S8x512x512x1_S8x512x512x3_0_1_2_3 x (ix4 n h w v) = x (ix4 n h w 0) :=
  broadcastInDim_apply _ bcast_S8x512x512x1_S8x512x512x3_0_1_2_3 x (ix4 n h w v) (ix4 n h w 0) (fun a => match a with
    | ⟨0, _⟩ => by show n.val = if (8 : Nat) = 1 then 0 else n.val; rw [if_neg (by decide)]
    | ⟨1, _⟩ => by show h.val = if (512 : Nat) = 1 then 0 else h.val; rw [if_neg (by decide)]
    | ⟨2, _⟩ => by show w.val = if (512 : Nat) = 1 then 0 else w.val; rw [if_neg (by decide)]
    | ⟨3, _⟩ => by show 0 = if (1 : Nat) = 1 then 0 else v.val; rw [if_pos rfl])

/-- `[8,512,512,3] → [8,512,512,3,1]`. -/
theorem bcast_w1 (x : S8x512x512x3.Idx → α) (n : Fin 8) (h w : Fin 512) (v : Fin 3) (z : Fin 1) :
    broadcastInDim S8x512x512x3x1 ![0, 1, 2, 3] bcast_S8x512x512x3_S8x512x512x3x1_0_1_2_3 x (ix5 n h w v z) = x (ix4 n h w v) :=
  broadcastInDim_apply _ bcast_S8x512x512x3_S8x512x512x3x1_0_1_2_3 x (ix5 n h w v z) (ix4 n h w v) (fun a => match a with
    | ⟨0, _⟩ => by show n.val = if (8 : Nat) = 1 then 0 else n.val; rw [if_neg (by decide)]
    | ⟨1, _⟩ => by show h.val = if (512 : Nat) = 1 then 0 else h.val; rw [if_neg (by decide)]
    | ⟨2, _⟩ => by show w.val = if (512 : Nat) = 1 then 0 else w.val; rw [if_neg (by decide)]
    | ⟨3, _⟩ => by show v.val = if (3 : Nat) = 1 then 0 else v.val; rw [if_neg (by decide)])

/-- `[8,512,512,3,1] → [8,512,512,3,3]`: every channel reads the vertex's one entry. -/
theorem bcast_w3 (x : S8x512x512x3x1.Idx → α) (n : Fin 8) (h w : Fin 512) (v ch : Fin 3) :
    broadcastInDim S8x512x512x3x3 ![0, 1, 2, 3, 4] bcast_S8x512x512x3x1_S8x512x512x3x3_0_1_2_3_4 x (ix5 n h w v ch) = x (ix5 n h w v 0) :=
  broadcastInDim_apply _ bcast_S8x512x512x3x1_S8x512x512x3x3_0_1_2_3_4 x (ix5 n h w v ch) (ix5 n h w v 0) (fun a => match a with
    | ⟨0, _⟩ => by show n.val = if (8 : Nat) = 1 then 0 else n.val; rw [if_neg (by decide)]
    | ⟨1, _⟩ => by show h.val = if (512 : Nat) = 1 then 0 else h.val; rw [if_neg (by decide)]
    | ⟨2, _⟩ => by show w.val = if (512 : Nat) = 1 then 0 else w.val; rw [if_neg (by decide)]
    | ⟨3, _⟩ => by show v.val = if (3 : Nat) = 1 then 0 else v.val; rw [if_neg (by decide)]
    | ⟨4, _⟩ => by show 0 = if (1 : Nat) = 1 then 0 else ch.val; rw [if_pos rfl])

end Layout

/-! ## The stages at coordinates -/

variable (pix : IVec S8x512x512x1 32) (bary : FVec Ideal S8x512x512x1x3 .f32) (tab : FVec Ideal S800000x3x3 .f32)
variable (n : Fin 8) (h w : Fin 512) (v ch : Fin 3)

theorem faces_apply : faces pix (ix3 n h w) = pix (ix4 n h w 0) := by
  unfold faces; exact cast_pix pix n h w

theorem emptyBit_apply : emptyBit pix (ix3 n h w) = IntOp.cmpi .slt (pix (ix4 n h w 0)) 0#32 := by
  unfold emptyBit
  show IntOp.cmpi .slt (faces pix (ix3 n h w)) _ = _
  rw [faces_apply]; rfl

theorem safe_apply :
    safe pix (ix3 n h w) = Scalar.select (IntOp.cmpi .slt (pix (ix4 n h w 0)) 0#32) 0#32 (pix (ix4 n h w 0)) := by
  unfold safe
  show Scalar.select (emptyBit pix (ix3 n h w)) _ (faces pix (ix3 n h w)) = _
  rw [emptyBit_apply, faces_apply]; rfl

theorem wrapped_apply : wrapped pix (ix3 n h w) = Cert.Raster.wrap (safe pix (ix3 n h w)) := by
  unfold wrapped Cert.Raster.wrap; rfl

theorem weights_apply :
    weights pix bary (ix4 n h w v)
      = Scalar.select (IntOp.cmpi .slt (pix (ix4 n h w 0)) 0#32) (Ideal.ofBits .f32 0x00000000#32) (bary (ix5 n h w 0 v)) := by
  unfold weights
  rw [select_apply, bcast_pix3, bcast_pix1, emptyBit_apply, cast_bary]; rfl

theorem rows_apply :
    rows pix tab (ix5 n h w v ch) = tab (ix3 (Cert.Raster.row (wrapped pix (ix3 n h w))) v ch) := by
  unfold rows
  rw [Cert.Raster.gatherK_apply, bcast_pix1]

theorem products_apply :
    products pix bary tab (ix5 n h w v ch) = weights pix bary (ix4 n h w v) * rows pix tab (ix5 n h w v ch) := by
  unfold products
  rw [mulf_apply, bcast_w3, bcast_w1]

theorem shaded_apply :
    shaded pix bary tab (ix4 n h w ch)
      = Ideal.ofBits .f32 0x00000000#32 + ∑ v : Fin 3, products pix bary tab (ix5 n h w v ch) := by
  unfold shaded
  generalize products pix bary tab = y
  simp only [Host.reduceAdd, Ideal.hostReduceAdd_def]
  rw [Ideal.hostReduceAdd_single reducesTo_S8x512x512x3x3_S8x512x512x3_d3 (by decide)]
  refine congrArg (_ + ·) (Finset.sum_congr rfl fun k _ => ?_)
  exact congrArg y (funext fun a => Fin.ext (by match a with | ⟨0, _⟩ => rfl | ⟨1, _⟩ => rfl | ⟨2, _⟩ => rfl | ⟨3, _⟩ => rfl | ⟨4, _⟩ => rfl))

theorem planes_apply : planes pix bary tab (ix4 n ch h w) = shaded pix bary tab (ix4 n h w ch) := by
  unfold planes
  exact transpose_apply [0, 3, 1, 2] _ transposes_S8x512x512x3_S8x3x512x512_0_3_1_2 (ix4 n ch h w) (ix4 n h w ch) (fun b => match b with
    | ⟨0, _⟩ => rfl
    | ⟨1, _⟩ => rfl
    | ⟨2, _⟩ => rfl
    | ⟨3, _⟩ => rfl)

/-- A colour-plane entry: the initial value plus the sum over the vertices of (weight, zeroed on a negative word)
    times (the entry of the table row the safe word selects). -/
theorem planes_coords :
    planes pix bary tab (ix4 n ch h w)
      = Ideal.ofBits .f32 0x00000000#32 + ∑ v : Fin 3,
          Scalar.select (IntOp.cmpi .slt (pix (ix4 n h w 0)) 0#32) (Ideal.ofBits .f32 0x00000000#32) (bary (ix5 n h w 0 v))
            * tab (ix3 (Cert.Raster.row (Cert.Raster.wrap
                (Scalar.select (IntOp.cmpi .slt (pix (ix4 n h w 0)) 0#32) 0#32 (pix (ix4 n h w 0))))) v ch) := by
  rw [planes_apply, shaded_apply]
  refine congrArg (_ + ·) (Finset.sum_congr rfl fun v _ => ?_)
  rw [products_apply, weights_apply, rows_apply, wrapped_apply, safe_apply]

/-- A visibility-plane entry: the bit "the face word is not negative", as a number. -/
theorem visible_coords :
    visible (F := Ideal) pix (ix3 n h w) = FloatOps.uitofp (F := Ideal) .f32 (~~~ IntOp.cmpi .slt (pix (ix4 n h w 0)) 0#32) := by
  unfold visible
  show FloatOps.uitofp (F := Ideal) .f32 (~~~ emptyBit pix (ix3 n h w)) = _
  rw [emptyBit_apply]

end Cert.KernelIdeal.Host

end
-- ==== Proof.EmptyPixel.lean ====
/-
  A pixel's face word. A pixel is EMPTY when its face word is `-1`; every other admissible word is a row
  of the packed face table and is nonnegative. On the words `p ≥ -1` (signed, 32 bits) the two tests the
  two programs use for "empty" — `p < 0` and `p = -1` — are the same test.
-/
import Idealize.ShloMosaic.PureOps

namespace Cert.Raster

open Idealize.ShloMosaic

/-- On signed 32-bit words `p ≥ -1`: `p < 0` exactly when `p = -1`. -/
theorem slt_zero_eq_eq_neg_one (p : BitVec 32) (h : IntOp.cmpi .sge p 4294967295#32 = 1#1) :
    IntOp.cmpi .slt p 0#32 = IntOp.cmpi .eq p 4294967295#32 := by
  simp only [IntOp.cmpi] at h ⊢
  by_cases hp : p = 4294967295#32
  · subst hp; decide
  · have h1 : (4294967295#32 : BitVec 32).sle p = true := by
      cases hb : (4294967295#32 : BitVec 32).sle p
      · rw [hb] at h; exact absurd h (by decide)
      · rfl
    have h2 : (-1 : Int) ≤ p.toInt := by
      have := h1
      simp only [BitVec.sle, decide_eq_true_eq] at this
      simpa using this
    have h3 : p.toInt ≠ -1 := by
      intro he
      apply hp
      apply BitVec.eq_of_toInt_eq
      rw [he]; decide
    have h4 : p.slt 0#32 = false := by
      simp only [BitVec.slt, decide_eq_false_iff_not, BitVec.toInt_zero]
      omega
    have h5 : (p == 4294967295#32) = false := by
      simpa using hp
    rw [h4, h5]

end Cert.Raster
-- ==== Proof.Bridge.lean ====
/-
  THE LAW that joins the two sides. The kernel program tests "empty" by `p < 0` and zeroes the WEIGHTS of an empty
  pixel before the vertex sum; the specification tests `p = -1` and zeroes the SUM. On face words `p ≥ -1` the two
  tests agree (`Cert.Raster.slt_zero_eq_eq_neg_one`), and then, pixel by pixel:
    empty:      `0 + Σ_v 0 · t_v = 0`   (a zero factor annihilates every extended real, and a sum of zeros is zero);
    not empty:  both are `0 + Σ_v b_v · t_v` at the same table row;
  and the visibility bit is the negation of the same test. So the kernel's two planes, laid out channel-first with
  the mask last, are the specification's image.
-/
import proofs.«144430_j57518202028323_2_alg».proof.Proof.KernelHostRead
import proofs.«144430_j57518202028323_2_alg».proof.Proof.EmptyPixel

noncomputable section

open scoped BigOperators

namespace Cert.KernelIdeal.Host

open Cert.KernelIdeal Cert.KernelIdeal.Gen Idealize.ShloMosaic Idealize.ShloMosaic.ValueIdx

/-- Under the face-word bound, the kernel program's planes in the kernel's layout are the specification. -/
theorem layout_eq_G (pix : IVec S8x512x512x1 32) (bary : FVec Ideal S8x512x512x1x3 .f32) (tab : FVec Ideal S800000x3x3 .f32)
    (hpix : ∀ i : S8x512x512x1.Idx, IntOp.cmpi .sge (pix i) 4294967295#32 = 1#1) :
    Cert.Raster.layout (planes pix bary tab) (visible (F := Ideal) pix) = Cert.Raster.G pix bary tab := by
  funext i
  have he := Cert.Raster.slt_zero_eq_eq_neg_one _ (hpix (ix4 (i 0) (i 2) (i 3) 0))
  unfold Cert.Raster.layout Cert.Raster.G
  by_cases hc : (i 1).val < 3
  · rw [dif_pos hc, dif_pos hc, planes_coords pix bary tab (i 0) (i 2) (i 3) ⟨(i 1).val, hc⟩, he]
    unfold Cert.Raster.shade Cert.Raster.isEmpty
    generalize IntOp.cmpi .eq (pix (ix4 (i 0) (i 2) (i 3) 0)) 4294967295#32 = e
    rcases BitVec.eq_zero_or_eq_one e with rfl | rfl
    · simp only [select_zero]
    · simp only [select_one, Ideal.ofBits_zero_f32, zero_mul, Finset.sum_const_zero, add_zero]
  · rw [dif_neg hc, dif_neg hc, visible_coords pix (i 0) (i 2) (i 3), he]
    rfl

end Cert.KernelIdeal.Host

end
-- ==== Proof.PixDomain.lean ====
/-
  From the precondition to the face-word bound. The precondition is the conjunction of three "for every entry"
  tests, each an and-reduction over all axes into one bit: every barycentric weight finite, every table entry
  finite, every face word `≥ -1`. If the conjunction is `1` then the last reduction is `1`, so the comparison
  `p ≥ -1` holds at every pixel.
-/
import proofs.«144430_j57518202028323_2_alg».proof.Defs
import proofs.«144430_j57518202028323_2_alg».proof.Proof.Gen.Pre_finite_inputs
import Idealize.ShloMosaic.Lib.ReduceAll
import Idealize.ShloMosaic.Lib.ValueIdx

noncomputable section

namespace Cert.Raster

open Idealize.ShloMosaic Idealize.ShloMosaic.ValueIdx Idealize.SL.Sem

/-- The scalar shape has one index. -/
instance : Subsingleton Cert.Pre_finite_inputs.S_.Idx := ⟨fun a b => funext fun d => d.elim0⟩

/-- The printed precondition, when it holds of the three arrays, bounds every face word below by `-1`. -/
theorem ge_neg_one_of_fn [Cert.Pre_finite_inputs.Facts] (pix : IVec Cert.Pre_finite_inputs.S8x512x512x1 32)
    (bary : FVec Ideal Cert.Pre_finite_inputs.S8x512x512x1x3 .f32) (attr : FVec Ideal Cert.Pre_finite_inputs.S8x100000x3x3 .f32)
    (hfn : Cert.Pre_finite_inputs.fn (F := Ideal) pix bary attr = fun _ => 1#1) (i : Cert.Pre_finite_inputs.S8x512x512x1.Idx) :
    IntOp.cmpi .sge (pix i) 4294967295#32 = 1#1 := by
  have h0 := congrFun hfn ix0
  dsimp only [Cert.Pre_finite_inputs.fn] at h0
  have h1 := (IntOp.andi_eq_one.1 h0).2
  exact Host.reduce_andi_all _ _ _ _ _ h1 i

/-- Under the kernel program's precondition every face word of every device's argument is `≥ -1`. -/
theorem pix_ge_neg_one [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8x512x512x1.Idx) :
    IntOp.cmpi .sge (m ((c.tc : Thread Cert.KernelIdeal.nD Cert.KernelIdeal.τ).loc Cert.KernelIdeal.main_arg0) i) 4294967295#32 = 1#1 :=
  ge_neg_one_of_fn _ _ _ (hpre c) i

end Cert.Raster

end
-- ==== Proof.ReferenceValue.lean ====
/-
  THE REFERENCE'S RESULT IS THE SPECIFICATION, INDEX BY INDEX. The reference program joins, along the channel axis,
  three colour planes and one mask plane. Read at an image index `(n, ch, h, w)`:

    channel `ch < 3` comes from the colour planes at `(n, ch, h, w)`: the transpose and the reshape bring this to the
      element `(n, h, w, 0, ch)` of the select on the pixel's "empty" bit between `0` and the sum, from the initial
      value `0`, over the three vertices `v` of the weight `(n, h, w, 0, v)` times the gathered table element
      `(row, v, ch)`, the row read from the pixel's word (an empty pixel's word first sent to `0`), wrapped by
      `+800000` when negative, then read signed and clamped;
    channel `3` comes from the mask plane at `(n, 0, h, w)`: the complement of the "empty" bit, as a number.

  Each layout operation is read at coordinates through its index map, and the index maps' compositions are
  identified with indices built from coordinates (the reshapes' row-major equations by linear arithmetic).
-/
import proofs.«144430_j57518202028323_2_alg».proof.Proof.Gen.ReferenceIdeal.Read
import proofs.«144430_j57518202028323_2_alg».proof.Proof.Raster
import proofs.«144430_j57518202028323_2_alg».proof.Proof.GatherRows
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- An image element of a colour channel comes from the first piece of the concatenation, at the same coordinates. -/
theorem v23_left (x0 : IVec S8x512x512x1 32) (x1 : FVec Ideal S8x512x512x1x3 .f32) (x2 : FVec Ideal S8x100000x3x3 .f32)
    (i : S8x4x512x512.Idx) (h : (i 1).val < 3) :
    Read.val_main_v23 (F := Ideal) x0 x1 x2 i
      = Read.val_main_v18 (F := Ideal) x0 x1 x2 (ix4 (i 0) (⟨(i 1).val, h⟩ : Fin 3) (i 2) (i 3)) := by
  unfold Read.val_main_v23
  generalize Read.val_main_v18 (F := Ideal) x0 x1 x2 = y
  generalize Read.val_main_v22 (F := Ideal) x0 = z
  exact concatenate_pair_apply_left 1 y z concatenates_S8x3x512x512_S8x1x512x512_S8x4x512x512_d1 i rfl _
    (fun b => by match b with | ⟨0, _⟩ => rfl | ⟨1, _⟩ => rfl | ⟨2, _⟩ => rfl | ⟨3, _⟩ => rfl)

/-- An image element of channel 3 comes from the second piece, at channel coordinate 0. -/
theorem v23_right (x0 : IVec S8x512x512x1 32) (x1 : FVec Ideal S8x512x512x1x3 .f32) (x2 : FVec Ideal S8x100000x3x3 .f32)
    (i : S8x4x512x512.Idx) (h : ¬ (i 1).val < 3) :
    Read.val_main_v23 (F := Ideal) x0 x1 x2 i
      = Read.val_main_v22 (F := Ideal) x0 (ix4 (i 0) (0 : Fin 1) (i 2) (i 3)) := by
  unfold Read.val_main_v23
  generalize Read.val_main_v18 (F := Ideal) x0 x1 x2 = y
  generalize Read.val_main_v22 (F := Ideal) x0 = z
  have h4 : (i 1).val < 4 := (i 1).isLt
  exact concatenate_pair_apply_right 1 y z concatenates_S8x3x512x512_S8x1x512x512_S8x4x512x512_d1 i rfl rfl _
    (fun b hb => by
      match b, hb with
      | ⟨0, _⟩, _ => rfl
      | ⟨1, _⟩, hb => exact absurd rfl hb
      | ⟨2, _⟩, _ => rfl
      | ⟨3, _⟩, _ => rfl)
    (by show 0 + 3 = (i 1).val; omega)

/-! ### The face word: the "empty" bit, the word with empty pixels sent to 0, the wrapped word -/

/-- The mask bit at a pixel is the specification's "empty" bit of its face word. -/
theorem v2_at (x0 : IVec S8x512x512x1 32) (p : S8x512x512x1.Idx) :
    Read.val_main_v2 (F := Ideal) x0 p = Cert.Raster.isEmpty (x0 p) := by
  rw [Read.val_main_v2_apply, Read.val_main_v1_apply, Read.val_main_c_apply]
  rfl

/-- The face word with an empty pixel's word replaced by 0. -/
theorem v3_at (x0 : IVec S8x512x512x1 32) (p : S8x512x512x1.Idx) :
    Read.val_main_v3 (F := Ideal) x0 p = Scalar.select (Cert.Raster.isEmpty (x0 p)) 0#32 (x0 p) := by
  rw [Read.val_main_v3_apply, v2_at, Read.val_main_call0_v1_apply, Read.val_main_call0_v0_apply,
    Read.val_main_c_0_apply]

/-- The start word of the gather is the wrapped word. -/
theorem v8_at (x0 : IVec S8x512x512x1 32) (p : S8x512x512x1.Idx) :
    Read.val_main_v8 (F := Ideal) x0 p = Cert.Raster.wrap (Read.val_main_v3 (F := Ideal) x0 p) := by
  rw [Read.val_main_v8_apply, Read.val_main_v5_apply, Read.val_main_v7_apply, Read.val_main_v4_apply,
    Read.val_main_c_1_apply, Read.val_main_v6_apply, Read.val_main_c_2_apply]
  rfl

/-! ### Index equations: the layout operations' index maps at coordinates -/

theorem idx9_at (n : Fin 8) (h w : Fin 512) :
    Read.idx_main_v9 (ix5 n h w (0 : Fin 1) (0 : Fin 1)) = ix4 n h w (0 : Fin 1) :=
  funext fun a => Fin.ext (by match a with | ⟨0, _⟩ => rfl | ⟨1, _⟩ => rfl | ⟨2, _⟩ => rfl | ⟨3, _⟩ => rfl)

theorem idx_bary_at (n : Fin 8) (h w : Fin 512) (c k : Fin 3) :
    Read.idx_main_v11 (Read.idx_main_v12 (Read.idx_main_v14 (ix5 n h w (0 : Fin 1) c) k)) = ix5 n h w (0 : Fin 1) k :=
  funext fun a => Fin.ext (by
    match a with | ⟨0, _⟩ => rfl | ⟨1, _⟩ => rfl | ⟨2, _⟩ => rfl | ⟨3, _⟩ => rfl | ⟨4, _⟩ => rfl)

theorem idx_mask_at (n : Fin 8) (h w : Fin 512) (c : Fin 3) :
    Read.idx_main_v15 (Read.idx_main_call1_v0 (ix5 n h w (0 : Fin 1) c)) = ix4 n h w (0 : Fin 1) :=
  funext fun a => Fin.ext (by match a with | ⟨0, _⟩ => rfl | ⟨1, _⟩ => rfl | ⟨2, _⟩ => rfl | ⟨3, _⟩ => rfl)

theorem idx17_at (n : Fin 8) (h w : Fin 512) (c : Fin 3) :
    Read.idx_main_v17 (ix4 n h w c) = ix5 n h w (0 : Fin 1) c :=
  funext fun a => Fin.ext (by
    have h0 : n.val < 8 := n.isLt
    have h1 : h.val < 512 := h.isLt
    have h2 : w.val < 512 := w.isLt
    have h3 : c.val < 3 := c.isLt
    match a with
    | ⟨0, _⟩ => show (((n.val * 512 + h.val) * 512 + w.val) * 3 + c.val) / 786432 = n.val; omega
    | ⟨1, _⟩ => show (((n.val * 512 + h.val) * 512 + w.val) * 3 + c.val) / 1536 % 512 = h.val; omega
    | ⟨2, _⟩ => show (((n.val * 512 + h.val) * 512 + w.val) * 3 + c.val) / 3 % 512 = w.val; omega
    | ⟨3, _⟩ => rfl
    | ⟨4, _⟩ => show (((n.val * 512 + h.val) * 512 + w.val) * 3 + c.val) % 3 = c.val; omega)

theorem idx18_at (n : Fin 8) (c : Fin 3) (h w : Fin 512) :
    Read.idx_main_v18 (ix4 n c h w) = ix4 n h w c :=
  funext fun a => Fin.ext (by match a with | ⟨0, _⟩ => rfl | ⟨1, _⟩ => rfl | ⟨2, _⟩ => rfl | ⟨3, _⟩ => rfl)

theorem idx20_at (n : Fin 8) (h w : Fin 512) :
    Read.idx_main_v20 (ix3 n h w) = ix4 n h w (0 : Fin 1) :=
  funext fun a => Fin.ext (by
    have h0 : n.val < 8 := n.isLt
    have h1 : h.val < 512 := h.isLt
    have h2 : w.val < 512 := w.isLt
    match a with
    | ⟨0, _⟩ => show ((n.val * 512 + h.val) * 512 + w.val) / 262144 = n.val; omega
    | ⟨1, _⟩ => show ((n.val * 512 + h.val) * 512 + w.val) / 512 % 512 = h.val; omega
    | ⟨2, _⟩ => show ((n.val * 512 + h.val) * 512 + w.val) / 1 % 512 = w.val; omega
    | ⟨3, _⟩ => rfl)

theorem idx22_at (n : Fin 8) (h w : Fin 512) :
    Read.idx_main_v22 (ix4 n (0 : Fin 1) h w) = ix3 n h w :=
  funext fun a => Fin.ext (by match a with | ⟨0, _⟩ => rfl | ⟨1, _⟩ => rfl | ⟨2, _⟩ => rfl)

/-! ### The colour planes -/

/-- The gathered table element: row `row (wrap q)` of the packed table, `q` the pixel's word with empty sent to 0. -/
theorem v10_at (x0 : IVec S8x512x512x1 32) (x2 : FVec Ideal S8x100000x3x3 .f32)
    (n : Fin 8) (h w : Fin 512) (k c : Fin 3) :
    Read.val_main_v10 (F := Ideal) x0 x2 (Read.idx_main_v14 (ix5 n h w (0 : Fin 1) c) k)
      = Read.val_main_v0 (F := Ideal) x2
          (ix3 (Cert.Raster.row (Cert.Raster.wrap (Read.val_main_v3 (F := Ideal) x0 (ix4 n h w (0 : Fin 1))))) k c) := by
  unfold Read.val_main_v10
  rw [Cert.Raster.gatherR_apply]
  show Read.val_main_v0 (F := Ideal) x2 (ix3 (Cert.Raster.row (Read.val_main_v9 (F := Ideal) x0 (ix5 n h w (0 : Fin 1) (0 : Fin 1)))) k c) = _
  rw [Read.val_main_v9_apply, idx9_at, v8_at]

/-- One term of the interpolation: weight times gathered table element. -/
theorem v13_at (x0 : IVec S8x512x512x1 32) (x1 : FVec Ideal S8x512x512x1x3 .f32) (x2 : FVec Ideal S8x100000x3x3 .f32)
    (n : Fin 8) (h w : Fin 512) (k c : Fin 3) :
    Read.val_main_v13 (F := Ideal) x0 x1 x2 (Read.idx_main_v14 (ix5 n h w (0 : Fin 1) c) k)
      = x1 (ix5 n h w (0 : Fin 1) k) * Read.val_main_v0 (F := Ideal) x2
          (ix3 (Cert.Raster.row (Cert.Raster.wrap (Read.val_main_v3 (F := Ideal) x0 (ix4 n h w (0 : Fin 1))))) k c) := by
  rw [Read.val_main_v13_apply, Read.val_main_v12_apply, Read.val_main_v11_apply, idx_bary_at, v10_at]
  rfl

/-- The sum over the three vertices is the specification's interpolation. -/
theorem v14_at (x0 : IVec S8x512x512x1 32) (x1 : FVec Ideal S8x512x512x1x3 .f32) (x2 : FVec Ideal S8x100000x3x3 .f32)
    (n : Fin 8) (h w : Fin 512) (c : Fin 3) :
    Read.val_main_v14 (F := Ideal) x0 x1 x2 (ix5 n h w (0 : Fin 1) c)
      = Cert.Raster.shade (fun v => x1 (ix5 n h w (0 : Fin 1) v)) (Read.val_main_v0 (F := Ideal) x2)
          (Read.val_main_v3 (F := Ideal) x0 (ix4 n h w (0 : Fin 1))) c := by
  rw [Read.val_main_v14_apply]
  unfold Cert.Raster.shade
  refine congrArg₂ (· + ·) rfl (Finset.sum_congr rfl fun k _ => ?_)
  exact v13_at x0 x1 x2 n h w k c

/-- The select on the "empty" bit. -/
theorem v16_at (x0 : IVec S8x512x512x1 32) (x1 : FVec Ideal S8x512x512x1x3 .f32) (x2 : FVec Ideal S8x100000x3x3 .f32)
    (n : Fin 8) (h w : Fin 512) (c : Fin 3) :
    Read.val_main_v16 (F := Ideal) x0 x1 x2 (ix5 n h w (0 : Fin 1) c)
      = Scalar.select (Cert.Raster.isEmpty (x0 (ix4 n h w (0 : Fin 1)))) (Ideal.ofBits .f32 0x00000000#32)
          (Cert.Raster.shade (fun v => x1 (ix5 n h w (0 : Fin 1) v)) (Read.val_main_v0 (F := Ideal) x2)
            (Scalar.select (Cert.Raster.isEmpty (x0 (ix4 n h w (0 : Fin 1)))) 0#32 (x0 (ix4 n h w (0 : Fin 1)))) c) := by
  rw [Read.val_main_v16_apply, Read.val_main_call1_v0_apply, Read.val_main_v15_apply, idx_mask_at, v2_at,
    Read.val_main_call1_v1_apply, Read.val_main_cst_3_apply, v14_at, v3_at]
  rfl

/-- A colour plane's element, by coordinates. -/
theorem v18_at (x0 : IVec S8x512x512x1 32) (x1 : FVec Ideal S8x512x512x1x3 .f32) (x2 : FVec Ideal S8x100000x3x3 .f32)
    (n : Fin 8) (c : Fin 3) (h w : Fin 512) :
    Read.val_main_v18 (F := Ideal) x0 x1 x2 (ix4 n c h w)
      = Scalar.select (Cert.Raster.isEmpty (x0 (ix4 n h w (0 : Fin 1)))) (Ideal.ofBits .f32 0x00000000#32)
          (Cert.Raster.shade (fun v => x1 (ix5 n h w (0 : Fin 1) v)) (Read.val_main_v0 (F := Ideal) x2)
            (Scalar.select (Cert.Raster.isEmpty (x0 (ix4 n h w (0 : Fin 1)))) 0#32 (x0 (ix4 n h w (0 : Fin 1)))) c) := by
  rw [Read.val_main_v18_apply, idx18_at, Read.val_main_v17_apply, idx17_at, v16_at]

/-! ### The mask plane -/

/-- The mask plane's element: the complement of the "empty" bit, as a number. -/
theorem v22_at (x0 : IVec S8x512x512x1 32) (n : Fin 8) (h w : Fin 512) :
    Read.val_main_v22 (F := Ideal) x0 (ix4 n (0 : Fin 1) h w)
      = FloatOps.uitofp (F := Ideal) .f32 (~~~ Cert.Raster.isEmpty (x0 (ix4 n h w (0 : Fin 1)))) := by
  rw [Read.val_main_v22_apply, idx22_at, Read.val_main_v21_apply, Read.val_main_v20_apply, idx20_at,
    Read.val_main_v19_apply, v2_at]

/-! ### The result -/

/-- The reference's result is the specification, index by index. -/
theorem reference_eq (x0 : IVec S8x512x512x1 32) (x1 : FVec Ideal S8x512x512x1x3 .f32) (x2 : FVec Ideal S8x100000x3x3 .f32) :
    Read.val_main_v23 (F := Ideal) x0 x1 x2 = Cert.Raster.G x0 x1 (Read.val_main_v0 (F := Ideal) x2) := by
  funext i
  by_cases h : (i 1).val < 3
  · refine (v23_left x0 x1 x2 i h).trans
      ((v18_at x0 x1 x2 (i 0) (⟨(i 1).val, h⟩ : Fin 3) (i 2) (i 3)).trans ?_)
    unfold Cert.Raster.G
    rw [dif_pos h]
  · refine (v23_right x0 x1 x2 i h).trans ((v22_at x0 (i 0) (i 2) (i 3)).trans ?_)
    unfold Cert.Raster.G
    rw [dif_neg h]

end Cert.ReferenceIdeal.RefValue

end
-- ==== Proof.lean ====
/-
  The certificate of a rasteriser's shading step. Each pixel `(n, h, w)` of eight `512 × 512` images carries a face
  word `p` (`-1`: empty) and three barycentric weights `b`; the packed face table has one `3 × 3` block (vertex ×
  channel) per face. The result image `[8, 4, 512, 512]` holds, in channels `0..2`, `0` on an empty pixel and
  `0 + Σ_v b_v · table[row p, v, ch]` elsewhere, and in channel `3` the visibility mask (`Cert.Raster.G`).

  The two programs differ in two ways. The reference tests "empty" by `p = -1` and zeroes the interpolated SUM;
  the kernel program tests `p < 0`, zeroes the WEIGHTS before the sum, does the whole computation on the host and
  uses its kernel only to lay the three colour planes and the mask plane out as one image, one image per grid
  point. Under the precondition every face word is `≥ -1`, where the two tests agree, and a zero weight annihilates
  every extended real, so both compute `G`:
    the kernel's output array is the layout of its two staged arrays (`Cert.KernelIdeal.Blocks.final`), those are
    the host's planes (`Host.V_planes`, `Host.V_visible`), and their layout is `G` (`Host.layout_eq_G`);
    the reference's result is `G` index by index (`RefValue.reference_eq`).
  No operation was rewritten by the idealization, so `preserves` is trivial; the three frames are the generated ones.
-/
import proofs.«144430_j57518202028323_2_alg».proof.Defs
import proofs.«144430_j57518202028323_2_alg».proof.Proof.Gen.Kernel
import proofs.«144430_j57518202028323_2_alg».proof.Proof.Gen.Kernel.Skeleton
import proofs.«144430_j57518202028323_2_alg».proof.Proof.Gen.Kernel.Launch
import proofs.«144430_j57518202028323_2_alg».proof.Proof.Gen.Kernel.Points
import proofs.«144430_j57518202028323_2_alg».proof.Proof.Gen.Kernel.Frame
import proofs.«144430_j57518202028323_2_alg».proof.Proof.Gen.KernelIdeal
import proofs.«144430_j57518202028323_2_alg».proof.Proof.Gen.KernelIdeal.Skeleton
import proofs.«144430_j57518202028323_2_alg».proof.Proof.Gen.KernelIdeal.Launch
import proofs.«144430_j57518202028323_2_alg».proof.Proof.Gen.KernelIdeal.Points
import proofs.«144430_j57518202028323_2_alg».proof.Proof.Gen.KernelIdeal.Frame
import proofs.«144430_j57518202028323_2_alg».proof.Proof.Gen.ReferenceIdeal
import proofs.«144430_j57518202028323_2_alg».proof.Proof.Gen.Pre_finite_inputs
import proofs.«144430_j57518202028323_2_alg».proof.Proof.Gen.KernelIdeal.Value
import proofs.«144430_j57518202028323_2_alg».proof.Proof.Gen.ReferenceIdeal.Run
import proofs.«144430_j57518202028323_2_alg».proof.Proof.Gen.ReferenceIdeal.Read
import proofs.«144430_j57518202028323_2_alg».proof.Proof.KernelBlocks
import proofs.«144430_j57518202028323_2_alg».proof.Proof.Bridge
import proofs.«144430_j57518202028323_2_alg».proof.Proof.PixDomain
import proofs.«144430_j57518202028323_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's image of the (agreeing) arguments. -/
theorem algebraic : Cert.algebraic_KernelIdeal_ReferenceIdeal := by
  intro m ρ m' ρ' hpre hagree
  refine ⟨fun c => Cert.Raster.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.Host.table (F := Ideal) (m ((c.tc : Thread Cert.KernelIdeal.nD Cert.KernelIdeal.τ).loc Cert.KernelIdeal.main_arg2))), ?_, ?_⟩
  · -- the kernel program: its output array is the layout of the host's planes, which is the specification
    refine (θ_run Cert.KernelIdeal.defs _ _).mono (fun r h c => ⟨(h c).1.trans ?_, (h c).2⟩)
      (Cert.KernelIdeal.Value.run_blocks m ρ)
    rw [Cert.KernelIdeal.Blocks.final, Cert.KernelIdeal.Host.V_planes, Cert.KernelIdeal.Host.V_visible]
    exact Cert.KernelIdeal.Host.layout_eq_G _ _ _ (fun i => Cert.Raster.pix_ge_neg_one m hpre c i)
  · -- the reference: its result term is the specification of its own arguments, which agree with the kernel's
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.reference_eq,
      (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
